-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S2048x1024 : Shape := ⟨2, ![2048, 1024]⟩
abbrev S1536x4096 : Shape := ⟨2, ![1536, 4096]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1536x4096 : S_.BroadcastsInDim S1536x4096 (![] : Fin 0 → Fin S1536x4096.rank)
  reducesTo_S1536x4096_S_d0_1 : S1536x4096.ReducesTo [0, 1] S_

variable [Facts]

def fn_part1 {F : FTy → Type} [FloatOps F] (main_v13 : IVec S_ 1) (main_v16 : IVec S1536x4096 1) : IVec S_ 1 :=
  let main_c_5 : IVec S_ 1 := constantI S_ 1 1#1
  let main_v17 : IVec S_ 1 := (fun x v => Host.reduce IntOp.andi x v reducesTo_S1536x4096_S_d0_1 h_S_) main_v16 main_c_5
  let main_v18 : IVec S_ 1 := andi main_v13 main_v17
  main_v18

def fn {F : FTy → Type} [FloatOps F] (main_arg0 : FVec F S2048x512 .f32) (main_arg1 : FVec F S2048x1024 .f32) (main_arg2 : FVec F S2048x1024 .f32) (main_arg3 : FVec F S1536x4096 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1536x4096 .f32 := Host.absf main_arg3
  let main_cst_4 : FVec F S_ .f32 := constant S_ .f32 0x7F800000#32
  let main_v15 : FVec F S1536x4096 .f32 := broadcastInDim S1536x4096 ![] bcast_S_S1536x4096 main_cst_4
  let main_v16 : IVec S1536x4096 1 := cmpf .olt main_v14 main_v15
  fn_part1 (F := F) main_v13 main_v16
-- ==== Kernel.lean ====
abbrev S2048x512 : Shape := ⟨2, ![2048, 512]⟩
abbrev S2048x1024 : Shape := ⟨2, ![2048, 1024]⟩
abbrev S1536x4096 : Shape := ⟨2, ![1536, 4096]⟩
abbrev S256x1024 : Shape := ⟨2, ![256, 1024]⟩
abbrev S256x512 : Shape := ⟨2, ![256, 512]⟩
abbrev S1024x4096 : Shape := ⟨2, ![1024, 4096]⟩
abbrev S512x4096 : Shape := ⟨2, ![512, 4096]⟩
abbrev S256x4096 : Shape := ⟨2, ![256, 4096]⟩

abbrev nBuf : Space → Nat
  | .hbm => 7
  | .vmem => 11
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S2048x1024, .f32⟩
  | .hbm, ⟨3, _⟩ => ⟨S1536x4096, .f32⟩
  | .hbm, ⟨4, _⟩ => ⟨S1536x4096, .bf16⟩
  | .hbm, ⟨5, _⟩ => ⟨S2048x1024, .f32⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S1536x4096, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S256x512_S256x512_0_0 : ∀ a, (![0, 0] : Fin 2 → Nat) a + S256x512.size a ≤ S256x512.size a
  h_S256x512 : 0 < S256x512.numel
  inb_S1536x4096_S1024x4096_0_0 : ∀ a, (![0, 0] : Fin 2 → Nat) a + S1024x4096.size a ≤ S1536x4096.size a
  h_S1024x4096 : 0 < S1024x4096.numel
  shapeCasts_S1024x4096_S1024x4096 : S1024x4096.ShapeCasts S1024x4096
  inb_S1536x4096_S512x4096_1024_0 : ∀ a, (![1024, 0] : Fin 2 → Nat) a + S512x4096.size a ≤ S1536x4096.size a
  h_S512x4096 : 0 < S512x4096.numel
  shapeCasts_S512x4096_S512x4096 : S512x4096.ShapeCasts S512x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .f32 = 32 ∨ (Rect.block (s := S2048x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S2048x512.size a
  hwx0_1 : ∀ i : grid0.Coords, EltTy.bits .f32 = 32 ∨ (Rect.block (s := S2048x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536x4096.size a ≤ S1536x4096.size a
  hwx0_2 : ∀ i : grid0.Coords, EltTy.bits .bf16 = 32 ∨ (Rect.block (s := S1536x4096) S1536x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S2048x1024.size a
  hwx0_3 : ∀ i : grid0.Coords, EltTy.bits .f32 = 32 ∨ (Rect.block (s := S2048x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S2048x1024.size a
  hwx0_4 : ∀ i : grid0.Coords, EltTy.bits .f32 = 32 ∨ (Rect.block (s := S2048x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S2048x1024.size a
  hwx0_5 : ∀ i : grid0.Coords, EltTy.bits .f32 = 32 ∨ (Rect.block (s := S2048x1024) S256x1024.size (cc0_transform_5 i) (hinb0_5 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_arg1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1536x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where
  halias0_5 : Pipeline.Aliased win0 3 5

variable [Facts]
-- ==== ReferenceIdeal.lean ====
abbrev S2048x512 : Shape := ⟨2, ![2048, 512]⟩
abbrev S2048x1024 : Shape := ⟨2, ![2048, 1024]⟩
abbrev S1536x4096 : Shape := ⟨2, ![1536, 4096]⟩
abbrev S2048x1536 : Shape := ⟨2, ![2048, 1536]⟩
abbrev S2048x4096 : Shape := ⟨2, ![2048, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S2048x1024, .f32⟩
  | .hbm, ⟨3, _⟩ => ⟨S1536x4096, .f32⟩
  | .hbm, ⟨4, _⟩ => ⟨S2048x1536, .f32⟩
  | .hbm, ⟨5, _⟩ => ⟨S2048x4096, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  concatenates_S2048x1024_S2048x512_S2048x1536_d1 : Shape.Concatenates [S2048x1024, S2048x512] S2048x1536 1
  slices_S2048x4096_S2048x1024_0_0 : S2048x4096.Slices ![0, 0] S2048x1024
  slices_S2048x4096_S2048x1024_0_1024 : S2048x4096.Slices ![0, 1024] S2048x1024
  slices_S2048x4096_S2048x1024_0_2048 : S2048x4096.Slices ![0, 2048] S2048x1024
  slices_S2048x4096_S2048x1024_0_3072 : S2048x4096.Slices ![0, 3072] S2048x1024
  bcast_S_S2048x1024 : S_.BroadcastsInDim S2048x1024 (![] : Fin 0 → Fin S2048x1024.rank)
  dot_S2048x1536_S1536x4096_S2048x4096_1_0_0_1_n_n_wf : DotDims.WF S2048x1536 S1536x4096 S2048x4096 [1] [0] [0] [1] [] []

variable [Facts₀]

def dot_S2048x1536_S1536x4096_S2048x4096_1_0_0_1_n_n : DotDims S2048x1536 S1536x4096 S2048x4096 where
  lhsContracting := [1]
  rhsContracting := [0]
  lhsNonContracting := [0]
  rhsNonContracting := [1]
  lhsBatch := []
  rhsBatch := []
  wf := dot_S2048x1536_S1536x4096_S2048x4096_1_0_0_1_n_n_wf

class Facts : Prop extends Facts₀ where

variable [Facts]
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.KernelPreact.lean ====
/-
  The kernel's pre-activation block, read at an index.

  At one grid point the body holds a block of 256 rows of the hidden state (256 × 1024) and of the input
  (256 × 512), and the two row ranges of the weight matrix (1024 × 4096 and 512 × 4096). It narrows the two
  activations to the 16-bit format, multiplies each by its weight rows into a zero accumulator, and adds the two
  products. On the extended reals narrowing is the identity and each product is the textbook sum, so entry (p, q)
  of the block is
      Σ_{l < 1024} hBlk(p, l) · wTop(l, q)  +  Σ_{l < 512} xBlk(p, l) · wBot(l, q).
-/
import proofs.«124817_j33328946217790_2_alg».proof.Proof.Gen.KernelIdeal.Skeleton
import proofs.«124817_j33328946217790_2_alg».proof.Proof.LibPlainDot
import Idealize.ShloMosaic.Lib.Pipeline.Value
import Idealize.ShloMosaic.Lib.ValueIdx

noncomputable section

open scoped BigOperators

namespace Cert.KernelIdeal.Preact

open Cert.KernelIdeal Cert.KernelIdeal.Gen Idealize.ShloMosaic Idealize.ShloMosaic.ValueIdx

/-- The pre-activation payload as its tree of vector operations: two products into zero accumulators, added. -/
theorem pay_tree {F : FTy → Type} [FloatOps F] (P0 : Vec F S256x1024 .f32) (P1 : Vec F S256x512 .f32)
    (P2 : Vec F S1024x4096 .bf16) (P3 : Vec F S512x4096 .bf16) :
    k0_pay1 P0 P1 P2 P3
      = addf (matmul dot_S256x1024_S1024x4096_S256x4096_1_0_0_1_n_n none (truncf .bf16 P0 bitsLt_bf16_f32)
                (shapeCast S1024x4096 P2 shapeCasts_S1024x4096_S1024x4096) (constant S256x4096 .f32 0x00000000#32))
             (matmul dot_S256x512_S512x4096_S256x4096_1_0_0_1_n_n none (truncf .bf16 P1 bitsLt_bf16_f32)
                (shapeCast S512x4096 P3 shapeCasts_S512x4096_S512x4096) (constant S256x4096 .f32 0x00000000#32)) := rfl

/-- Entry (p, q) of the pre-activation block on the extended reals: the hidden-state rows against the top weight
    rows plus the input rows against the bottom weight rows. -/
theorem pay_apply (P0 : Vec Ideal S256x1024 .f32) (P1 : Vec Ideal S256x512 .f32)
    (P2 : Vec Ideal S1024x4096 .bf16) (P3 : Vec Ideal S512x4096 .bf16) (p : Fin 256) (q : Fin 4096) :
    k0_pay1 (F := Ideal) P0 P1 P2 P3 (ix2 p q)
      = ((∑ l : Fin 1024, (P0 (ix2 p l) : EReal) * (P2 (ix2 l q) : EReal))
          + ∑ l : Fin 512, (P1 (ix2 p l) : EReal) * (P3 (ix2 l q) : EReal) : EReal) := by
  rw [pay_tree, shapeCast_self, shapeCast_self]
  refine (addf_apply _ _ _).trans ?_
  congr 1
  · exact Cert.LibPlainDot.matmul_zero_apply (M := 256) (K := 1024) (N := 4096) none _ _ p q
  · exact Cert.LibPlainDot.matmul_zero_apply (M := 256) (K := 512) (N := 4096) none _ _ p q

end Cert.KernelIdeal.Preact

end
-- ==== Proof.CellSpec.lean ====
/-
  The LSTM cell as one function of the whole argument arrays, on the extended reals.

  With h the previous hidden state (2048 × 1024), x the input (2048 × 512), c the previous cell state
  (2048 × 1024) and w the weight matrix (1536 × 4096: its first 1024 rows meet h, its last 512 rows meet x),
  the pre-activation at row b and column n is
      z(b, n) = Σ_{k < 1024} h(b, k) · w(k, n)  +  Σ_{k < 512} x(b, k) · w(1024 + k, n).
  The four gates read z at the columns n, n + 1024, n + 2048 and n + 3072 (n < 1024), and
      c'(b, n) = σ(z(b, n + 1024)) · c(b, n) + σ(z(b, n)) · tanh z(b, n + 2048),
      h'(b, n) = σ(z(b, n + 3072)) · tanh c'(b, n),          σ(t) = 1 / (1 + e^(−t)).

  A sum over the 1536 rows of w is the sum over its first 1024 rows plus the sum over its last 512: this uses only
  that addition is associative and commutative, which holds on the extended reals with the infinities included, so
  nothing here asks the entries to be finite.
-/
import Idealize.ShloMosaic.Lib.ValueIdx
import Idealize.ShloMosaic.PureOps.Ideal

noncomputable section

open scoped BigOperators

namespace Cert.CellSpec

open Idealize.ShloMosaic Idealize.ShloMosaic.ValueIdx

/-- A matrix of extended reals with `r` rows and `s` columns. -/
abbrev Mat (r s : ℕ) : Type := (⟨2, ![r, s]⟩ : Shape).Idx → EReal

/-- Row `k` of the weight matrix, among the first 1024 (the rows that meet the hidden state). -/
abbrev hRow (k : Fin 1024) : Fin 1536 := ⟨k.val, by have := k.isLt; omega⟩

/-- Row `1024 + k` of the weight matrix (the rows that meet the input). -/
abbrev xRow (k : Fin 512) : Fin 1536 := ⟨1024 + k.val, by have := k.isLt; omega⟩

/-- Column `n + 1024 g` of the pre-activation: gate `g`'s column `n`. -/
abbrev gateCol (g : Fin 4) (n : Fin 1024) : Fin 4096 := ⟨n.val + 1024 * g.val, by have := n.isLt; have := g.isLt; omega⟩

/-- The pre-activation: the hidden state against the first 1024 rows of the weights, plus the input against the
    last 512. -/
def preact (h : Mat 2048 1024) (x : Mat 2048 512) (w : Mat 1536 4096) (b : Fin 2048) (n : Fin 4096) : EReal :=
  (∑ k : Fin 1024, h (ix2 b k) * w (ix2 (hRow k) n)) + ∑ k : Fin 512, x (ix2 b k) * w (ix2 (xRow k) n)

/-- The new cell state: forget gate times the old cell state, plus input gate times the candidate. -/
def cellNext (h : Mat 2048 1024) (x : Mat 2048 512) (c : Mat 2048 1024) (w : Mat 1536 4096) : Mat 2048 1024 := fun i =>
  Ideal.logistic (preact h x w (i 0) (gateCol 1 (i 1))) * c i
    + Ideal.logistic (preact h x w (i 0) (gateCol 0 (i 1))) * Ideal.tanh (preact h x w (i 0) (gateCol 2 (i 1)))

/-- The new hidden state: output gate times the hyperbolic tangent of the new cell state. -/
def hiddenNext (h : Mat 2048 1024) (x : Mat 2048 512) (c : Mat 2048 1024) (w : Mat 1536 4096) : Mat 2048 1024 := fun i =>
  Ideal.logistic (preact h x w (i 0) (gateCol 3 (i 1))) * Ideal.tanh (cellNext h x c w i)

/-- A sum over the 1536 rows is the sum over the first 1024 plus the sum over the last 512. -/
theorem sum_rows (f : Fin 1536 → EReal) :
    ∑ k : Fin 1536, f k = (∑ k : Fin 1024, f (hRow k)) + ∑ k : Fin 512, f (xRow k) :=
  Fin.sum_univ_add (a := 1024) (b := 512) f

/-- The float pattern of one denotes the number one. -/
theorem ofBits_one : Ideal.ofBits .f32 0x3F800000#32 = 1 := by
  simp [Ideal.ofBits, Ideal.ieee, -EReal.coe_mul]; norm_num

end Cert.CellSpec

end
-- ==== Proof.CellRows.lean ====
/-
  The cell acts row by row.

  Entry (b, n) of the new cell state and of the new hidden state depends on row b of the hidden state, of the input
  and of the old cell state, and on the whole weight matrix. So the formula applied to a block of 256 consecutive
  rows R, …, R + 255 of the three row-indexed arrays gives rows R, …, R + 255 of the result: at entry (p, n) of the
  block it is the whole-array formula at entry (R + p, n).
-/
import proofs.«124817_j33328946217790_2_alg».proof.Proof.CellSpec

noncomputable section

open scoped BigOperators

namespace Cert.CellSpec

open Idealize.ShloMosaic Idealize.ShloMosaic.ValueIdx

/-- Rows `R, …, R + 255` of a matrix with 2048 rows. -/
def rowsOf {s : ℕ} (A : Mat 2048 s) (R : ℕ) (hR : R + 256 ≤ 2048) : Mat 256 s :=
  fun y => A (ix2 (⟨R + (y 0).val, by have h : (y 0).val < 256 := idx2_lt0 y; omega⟩ : Fin 2048) (y 1))

/-- The pre-activation of a block of 256 rows: the block's hidden-state rows against the first 1024 weight rows,
    plus its input rows against the last 512. -/
def blockPre (hB : Mat 256 1024) (xB : Mat 256 512) (w : Mat 1536 4096) (p : Fin 256) (n : Fin 4096) : EReal :=
  (∑ k : Fin 1024, hB (ix2 p k) * w (ix2 (hRow k) n)) + ∑ k : Fin 512, xB (ix2 p k) * w (ix2 (xRow k) n)

/-- The new cell state of a block of 256 rows. -/
def blockCell (hB : Mat 256 1024) (xB : Mat 256 512) (w : Mat 1536 4096) (cB : Mat 256 1024) : Mat 256 1024 := fun y =>
  Ideal.logistic (blockPre hB xB w (y 0) (gateCol 1 (y 1))) * cB y
    + Ideal.logistic (blockPre hB xB w (y 0) (gateCol 0 (y 1))) * Ideal.tanh (blockPre hB xB w (y 0) (gateCol 2 (y 1)))

/-- The new hidden state of a block of 256 rows. -/
def blockHidden (hB : Mat 256 1024) (xB : Mat 256 512) (w : Mat 1536 4096) (cB : Mat 256 1024) : Mat 256 1024 := fun y =>
  Ideal.logistic (blockPre hB xB w (y 0) (gateCol 3 (y 1))) * Ideal.tanh (blockCell hB xB w cB y)

variable (h : Mat 2048 1024) (x : Mat 2048 512) (c : Mat 2048 1024) (w : Mat 1536 4096) (R : ℕ) (hR : R + 256 ≤ 2048)

/-- Where entry `y` of the block of rows from `R` sits in the whole array. -/
abbrev rowAt (y : (⟨2, ![256, 1024]⟩ : Shape).Idx) : (⟨2, ![2048, 1024]⟩ : Shape).Idx :=
  ix2 (⟨R + (y 0).val, by have h : (y 0).val < 256 := idx2_lt0 y; omega⟩ : Fin 2048) (y 1)

/-- The block's pre-activation is the whole arrays' at the shifted row. -/
theorem blockPre_rows (p : Fin 256) (n : Fin 4096) :
    blockPre (rowsOf h R hR) (rowsOf x R hR) w p n
      = preact h x w (⟨R + p.val, by have := p.isLt; omega⟩ : Fin 2048) n := rfl

/-- The block's new cell state is the whole arrays' at the shifted row. -/
theorem blockCell_rows (y : (⟨2, ![256, 1024]⟩ : Shape).Idx) :
    blockCell (rowsOf h R hR) (rowsOf x R hR) w (rowsOf c R hR) y = cellNext h x c w (rowAt R hR y) := rfl

/-- The block's new hidden state is the whole arrays' at the shifted row. -/
theorem blockHidden_rows (y : (⟨2, ![256, 1024]⟩ : Shape).Idx) :
    blockHidden (rowsOf h R hR) (rowsOf x R hR) w (rowsOf c R hR) y = hiddenNext h x c w (rowAt R hR y) := rfl

end Cert.CellSpec

end
-- ==== Proof.KernelBlock.lean ====
/-
  What the kernel body leaves in its two output blocks, as the cell formula on a block of rows.

  The body loads a block of 256 rows of the hidden state, of the input and of the old cell state, and the weight
  matrix twice: its first 1024 rows and its last 512 rows. Reading each load back at an index — the activations'
  blocks whole, the weights' two row ranges at row l and at row 1024 + l — turns the body's pre-activation into the
  block pre-activation of the specification, and the gates' four column ranges into the columns n + 1024 g.
-/
import proofs.«124817_j33328946217790_2_alg».proof.Proof.Gen.KernelIdeal.Value
import proofs.«124817_j33328946217790_2_alg».proof.Proof.KernelPreact
import proofs.«124817_j33328946217790_2_alg».proof.Proof.CellRows

noncomputable section

open scoped BigOperators

namespace Cert.KernelIdeal.Block

open Cert.KernelIdeal Cert.KernelIdeal.Gen Cert.CellSpec Idealize.ShloMosaic Idealize.ShloMosaic.ValueIdx

variable (x0 : Vec Ideal S256x1024 .f32) (x1 : Vec Ideal S256x512 .f32) (x2 : Vec Ideal S1536x4096 .bf16)
  (x3 : Vec Ideal S256x1024 .f32)

/-- The zero offsets, however spelt. -/
theorem zero_off : (![0, 0] : Fin 2 → Nat) = fun _ => 0 := funext fun a => by fin_cases a <;> rfl

/-- The body's pre-activation at entry (p, q) of the block, from the block's loads, is the block pre-activation. -/
theorem pre_at (p : Fin 256) (q : Fin 4096) (i : S256x4096.Idx) (hi : i = ix2 p q) :
    k0_pay1 (F := Ideal) (View.ld x0 r0_0) (View.ld x1 r0_1) (View.ld x2 r0_2) (View.ld x2 r0_3) i
      = blockPre x0 x1 x2 p q := by
  subst hi
  rw [Preact.pay_apply]
  unfold blockPre
  congr 1
  · refine Finset.sum_congr rfl fun l _ => ?_
    have e0 : r0_0.idx (ix2 p l) = ix2 p l := by
      funext a; apply Fin.ext
      match a with
      | ⟨0, _⟩ => show 0 + 1 * p.val = p.val; omega
      | ⟨1, _⟩ => show 0 + 1 * l.val = l.val; omega
    have e2 : r0_2.idx (ix2 l q) = ix2 (hRow l) q := by
      funext a; apply Fin.ext
      match a with
      | ⟨0, _⟩ => show 0 + 1 * l.val = l.val; omega
      | ⟨1, _⟩ => show 0 + 1 * q.val = q.val; omega
    show x0 (r0_0.idx (ix2 p l)) * x2 (r0_2.idx (ix2 l q)) = _
    rw [e0, e2]
  · refine Finset.sum_congr rfl fun l _ => ?_
    have e1 : r0_1.idx (ix2 p l) = ix2 p l := by
      funext a; apply Fin.ext
      match a with
      | ⟨0, _⟩ => show 0 + 1 * p.val = p.val; omega
      | ⟨1, _⟩ => show 0 + 1 * l.val = l.val; omega
    have e3 : r0_3.idx (ix2 l q) = ix2 (xRow l) q := by
      funext a; apply Fin.ext
      match a with
      | ⟨0, _⟩ => show 1024 + 1 * l.val = 1024 + l.val; omega
      | ⟨1, _⟩ => show 0 + 1 * q.val = q.val; omega
    show x1 (r0_1.idx (ix2 p l)) * x2 (r0_3.idx (ix2 l q)) = _
    rw [e1, e3]

/-- Column `n + 1024 g` of row `y 0`, as an index of the pre-activation block. -/
theorem gate_ix (y : S256x1024.Idx) (g : Fin 4) (i : S256x4096.Idx) (h0 : (i 0).val = (y 0).val)
    (h1 : (i 1).val = (y 1).val + 1024 * g.val) : i = ix2 (y 0) (gateCol g (y 1)) := by
  funext a; apply Fin.ext
  match a with
  | ⟨0, _⟩ => exact h0
  | ⟨1, _⟩ => exact h1

/-- The block the body leaves for the new cell state is the block cell formula of its loads. -/
theorem out5_eq (y : S256x1024.Idx) : out0_5 (F := Ideal) x0 x1 x2 x3 y = blockCell x0 x1 x2 x3 y := by
  unfold out0_5
  rw [Value.canon5_eq]
  have i0 := gate_ix y 1 (Value.ix5_0 y) rfl rfl
  have i2 := gate_ix y 0 (Value.ix5_2 y) rfl rfl
  have i3 := gate_ix y 2 (Value.ix5_3 y) rfl rfl
  have i1 : Value.ix5_1 y = y := by
    funext a; apply Fin.ext
    match a with
    | ⟨0, _⟩ => rfl
    | ⟨1, _⟩ => rfl
  show Ideal.logistic (k0_pay1 (F := Ideal) (View.ld x0 r0_0) (View.ld x1 r0_1) (View.ld x2 r0_2) (View.ld x2 r0_3) (Value.ix5_0 y))
        * (View.ld x3 r0_0) (Value.ix5_1 y)
      + Ideal.logistic (k0_pay1 (F := Ideal) (View.ld x0 r0_0) (View.ld x1 r0_1) (View.ld x2 r0_2) (View.ld x2 r0_3) (Value.ix5_2 y))
        * Ideal.tanh (k0_pay1 (F := Ideal) (View.ld x0 r0_0) (View.ld x1 r0_1) (View.ld x2 r0_2) (View.ld x2 r0_3) (Value.ix5_3 y)) = _
  rw [pre_at x0 x1 x2 _ _ _ i0, pre_at x0 x1 x2 _ _ _ i2, pre_at x0 x1 x2 _ _ _ i3, View.ld_unit_zero zero_off, i1]
  rfl

/-- The block the body leaves for the new hidden state is the block hidden-state formula of its loads. -/
theorem out4_eq (y : S256x1024.Idx) : out0_4 (F := Ideal) x0 x1 x2 x3 y = blockHidden x0 x1 x2 x3 y := by
  unfold out0_4
  rw [Value.canon4_eq]
  have i0 := gate_ix y 3 (Value.ix4_0 y) rfl rfl
  have i1 := gate_ix y 1 (Value.ix4_1 y) rfl rfl
  have i3 := gate_ix y 0 (Value.ix4_3 y) rfl rfl
  have i4 := gate_ix y 2 (Value.ix4_4 y) rfl rfl
  have i2 : Value.ix4_2 y = y := by
    funext a; apply Fin.ext
    match a with
    | ⟨0, _⟩ => rfl
    | ⟨1, _⟩ => rfl
  show Ideal.logistic (k0_pay1 (F := Ideal) (View.ld x0 r0_0) (View.ld x1 r0_1) (View.ld x2 r0_2) (View.ld x2 r0_3) (Value.ix4_0 y))
      * Ideal.tanh (Ideal.logistic (k0_pay1 (F := Ideal) (View.ld x0 r0_0) (View.ld x1 r0_1) (View.ld x2 r0_2) (View.ld x2 r0_3) (Value.ix4_1 y))
            * (View.ld x3 r0_0) (Value.ix4_2 y)
          + Ideal.logistic (k0_pay1 (F := Ideal) (View.ld x0 r0_0) (View.ld x1 r0_1) (View.ld x2 r0_2) (View.ld x2 r0_3) (Value.ix4_3 y))
            * Ideal.tanh (k0_pay1 (F := Ideal) (View.ld x0 r0_0) (View.ld x1 r0_1) (View.ld x2 r0_2) (View.ld x2 r0_3) (Value.ix4_4 y))) = _
  rw [pre_at x0 x1 x2 _ _ _ i0, pre_at x0 x1 x2 _ _ _ i1, pre_at x0 x1 x2 _ _ _ i3, pre_at x0 x1 x2 _ _ _ i4,
    View.ld_unit_zero zero_off, i2]
  rfl

end Cert.KernelIdeal.Block

end
-- ==== Proof.KernelArrays.lean ====
/-
  The kernel's two result arrays as the cell formula of the whole argument arrays.

  The grid has 8 points. At point t every row-indexed window (hidden state, input, old cell state, and the two
  results) holds the block of rows 256 t, …, 256 t + 255 of its array, all columns; the weight window holds the whole
  weight matrix at every point. So what point t writes back is rows 256 t, …, 256 t + 255 of the cell formula of
  the whole arrays (the cell acts row by row), and the 8 blocks tile the 2048 rows: row r lies in the block of point
  r / 256. The weight array the region finds is the argument narrowed to the 16-bit format by the host, which on the
  extended reals is the argument itself.
-/
import proofs.«124817_j33328946217790_2_alg».proof.Proof.Gen.KernelIdeal.Value
import proofs.«124817_j33328946217790_2_alg».proof.Proof.KernelBlock
import Idealize.ShloMosaic.Lib.StableHlo.Run
import Idealize.ShloMosaic.Lib.Pipeline.Value

noncomputable section

namespace Cert.KernelIdeal.Arrays

open Cert.KernelIdeal Cert.KernelIdeal.Gen Cert.CellSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The windows' block indices over the grid -/

/-- At every grid point the row-indexed windows share one block row and sit at block column 0; the weight window
    sits at block (0, 0); there are 8 block rows. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = win0_4.index t (0 : Fin 2) ∧ win0_3.index t (1 : Fin 2) = 0
    ∧ win0_5.index t (0 : Fin 2) = win0_4.index t (0 : Fin 2) ∧ win0_5.index t (1 : Fin 2) = 0
    ∧ win0_4.index t (1 : Fin 2) = 0 ∧ win0_4.index t (0 : Fin 2) ≤ 7 :=
  (by decide +kernel : ∀ t : Fin grid0.N, _)

/-- Every block row is some point's. -/
theorem idx_onto : ∀ q : Fin 8, ∃ t : Fin cfg0.N, win0_4.index t = ![q.val, 0] ∧ win0_5.index t = ![q.val, 0] :=
  (by decide +kernel : ∀ q : Fin 8, ∃ t : Fin grid0.N, win0_4.index t = ![q.val, 0] ∧ win0_5.index t = ![q.val, 0])

/-- The first row of point `t`'s blocks. -/
abbrev baseRow (t : Fin cfg0.N) : ℕ := win0_4.index t (0 : Fin 2) * 256

theorem baseRow_le (t : Fin cfg0.N) : baseRow t + 256 ≤ 2048 := by
  have h := (idx_facts t).2.2.2.2.2.2.2.2.2.2.2
  show win0_4.index t (0 : Fin 2) * 256 + 256 ≤ 2048
  omega

/-! ## The input windows' blocks as row ranges of their arrays -/

/-- The hidden-state window's block at point `t`: rows from `baseRow t` of the hidden state. -/
theorem blk_h (c : Dev nD) (t : Fin cfg0.N) :
    (iblk m c 0 t : Mat 256 1024) = rowsOf (V m c main_arg1) (baseRow t) (baseRow_le t) := by
  obtain ⟨e0, e1, -⟩ := idx_facts t
  funext y
  have hy0 : (y 0).val < 256 := idx2_lt0 y
  have hy1 : (y 1).val < 1024 := idx2_lt1 y
  show V m c main_arg1 (((cfg0.win 0).blk t).view.emb y) = rowsOf (V m c main_arg1) (baseRow t) (baseRow_le t) y
  unfold rowsOf
  refine congrArg (V m c main_arg1) ?_
  funext a; apply Fin.ext
  match a with
  | ⟨0, _⟩ => show win0_0.index t (0 : Fin 2) * 256 + 1 * (y 0).val = win0_4.index t (0 : Fin 2) * 256 + (y 0).val; omega
  | ⟨1, _⟩ => show win0_0.index t (1 : Fin 2) * 1024 + 1 * (y 1).val = (y 1).val; omega

/-- The input window's block at point `t`: rows from `baseRow t` of the input. -/
theorem blk_x (c : Dev nD) (t : Fin cfg0.N) :
    (iblk m c 1 t : Mat 256 512) = rowsOf (V m c main_arg0) (baseRow t) (baseRow_le t) := by
  obtain ⟨-, -, e0, e1, -⟩ := idx_facts t
  funext y
  have hy0 : (y 0).val < 256 := idx2_lt0 y
  have hy1 : (y 1).val < 512 := idx2_lt1 y
  show V m c main_arg0 (((cfg0.win 1).blk t).view.emb y) = rowsOf (V m c main_arg0) (baseRow t) (baseRow_le t) y
  unfold rowsOf
  refine congrArg (V m c main_arg0) ?_
  funext a; apply Fin.ext
  match a with
  | ⟨0, _⟩ => show win0_1.index t (0 : Fin 2) * 256 + 1 * (y 0).val = win0_4.index t (0 : Fin 2) * 256 + (y 0).val; omega
  | ⟨1, _⟩ => show win0_1.index t (1 : Fin 2) * 512 + 1 * (y 1).val = (y 1).val; omega

/-- The weight window's block at every point: the whole weight array the region finds. -/
theorem blk_w (c : Dev nD) (t : Fin cfg0.N) : (iblk m c 2 t : Mat 1536 4096) = V m c main_v0 := by
  obtain ⟨-, -, -, -, e0, e1, -⟩ := idx_facts t
  funext y
  have hy0 : (y 0).val < 1536 := idx2_lt0 y
  have hy1 : (y 1).val < 4096 := idx2_lt1 y
  show V m c main_v0 (((cfg0.win 2).blk t).view.emb y) = V m c main_v0 y
  refine congrArg (V m c main_v0) ?_
  funext a; apply Fin.ext
  match a with
  | ⟨0, _⟩ => show win0_2.index t (0 : Fin 2) * 1536 + 1 * (y 0).val = (y 0).val; omega
  | ⟨1, _⟩ => show win0_2.index t (1 : Fin 2) * 4096 + 1 * (y 1).val = (y 1).val; omega

/-- The old cell state's block at point `t`: rows from `baseRow t` of the old cell state. -/
theorem blk_c (c : Dev nD) (t : Fin cfg0.N) :
    (iblk m c 3 t : Mat 256 1024) = rowsOf (V m c main_arg2) (baseRow t) (baseRow_le t) := by
  obtain ⟨-, -, -, -, -, -, e0, e1, -⟩ := idx_facts t
  funext y
  have hy0 : (y 0).val < 256 := idx2_lt0 y
  have hy1 : (y 1).val < 1024 := idx2_lt1 y
  show V m c main_arg2 (((cfg0.win 3).blk t).view.emb y) = rowsOf (V m c main_arg2) (baseRow t) (baseRow_le t) y
  unfold rowsOf
  refine congrArg (V m c main_arg2) ?_
  funext a; apply Fin.ext
  match a with
  | ⟨0, _⟩ => show win0_3.index t (0 : Fin 2) * 256 + 1 * (y 0).val = win0_4.index t (0 : Fin 2) * 256 + (y 0).val; omega
  | ⟨1, _⟩ => show win0_3.index t (1 : Fin 2) * 1024 + 1 * (y 1).val = (y 1).val; omega

/-! ## What each point writes back -/

/-- Point `t` writes back to the hidden-state result its block of the new hidden state of the whole arrays. -/
theorem flushed4_eq (c : Dev nD) (t : Fin cfg0.N) :
    (dats m 0 c).flushed 4 t = ((cfg0.win 4).blk t).view.read (Elt Ideal)
      (hiddenNext (V m c main_arg1) (V m c main_arg0) (V m c main_arg2) (V m c main_v0)) := by
  rw [Value.flushed4]
  have e1 := (idx_facts t).2.2.2.2.2.2.2.2.2.2.1
  funext j
  have hj0 : (j 0).val < 256 := idx2_lt0 j
  have hj1 : (j 1).val < 1024 := idx2_lt1 j
  show out0_4 (F := Ideal) (iblk m c 0 t) (iblk m c 1 t) (iblk m c 2 t) (iblk m c 3 t) j
    = hiddenNext (V m c main_arg1) (V m c main_arg0) (V m c main_arg2) (V m c main_v0) (((cfg0.win 4).blk t).view.emb j)
  rw [Block.out4_eq, blk_h, blk_x, blk_w, blk_c, blockHidden_rows]
  refine congrArg _ ?_
  funext a; apply Fin.ext
  match a with
  | ⟨0, _⟩ => show win0_4.index t (0 : Fin 2) * 256 + (j 0).val = win0_4.index t (0 : Fin 2) * 256 + 1 * (j 0).val; omega
  | ⟨1, _⟩ => show (j 1).val = win0_4.index t (1 : Fin 2) * 1024 + 1 * (j 1).val; omega

/-- Point `t` writes back to the cell-state result its block of the new cell state of the whole arrays. -/
theorem flushed5_eq (c : Dev nD) (t : Fin cfg0.N) :
    (dats m 0 c).flushed 5 t = ((cfg0.win 5).blk t).view.read (Elt Ideal)
      (cellNext (V m c main_arg1) (V m c main_arg0) (V m c main_arg2) (V m c main_v0)) := by
  rw [Value.flushed5]
  obtain ⟨-, -, -, -, -, -, -, -, e0, e1, -⟩ := idx_facts t
  funext j
  have hj0 : (j 0).val < 256 := idx2_lt0 j
  have hj1 : (j 1).val < 1024 := idx2_lt1 j
  show out0_5 (F := Ideal) (iblk m c 0 t) (iblk m c 1 t) (iblk m c 2 t) (iblk m c 3 t) j
    = cellNext (V m c main_arg1) (V m c main_arg0) (V m c main_arg2) (V m c main_v0) (((cfg0.win 5).blk t).view.emb j)
  rw [Block.out5_eq, blk_h, blk_x, blk_w, blk_c, blockCell_rows]
  refine congrArg _ ?_
  funext a; apply Fin.ext
  match a with
  | ⟨0, _⟩ => show win0_4.index t (0 : Fin 2) * 256 + (j 0).val = win0_5.index t (0 : Fin 2) * 256 + 1 * (j 0).val; omega
  | ⟨1, _⟩ => show (j 1).val = win0_5.index t (1 : Fin 2) * 1024 + 1 * (j 1).val; omega

/-! ## The blocks tile the arrays -/

/-- An index is in point `t`'s block of the hidden-state result iff each coordinate is in the block's range. -/
theorem mem_blk4 (t : Fin cfg0.N) (i : S2048x1024.Idx) :
    i ∈ ((cfg0.win 4).blk t).view.set ↔ ∀ a : Fin 2, win0_4.index t a * S256x1024.size a ≤ (i a).val
      ∧ (i a).val < win0_4.index t a * S256x1024.size a + S256x1024.size a := by
  show i ∈ ((View.whole main_v1_0).slice (win0_4.rect t)).set ↔ _
  rw [View.set_slice_whole, Rect.mem_set_unit]
  exact Iff.rfl

/-- The same for the cell-state result. -/
theorem mem_blk5 (t : Fin cfg0.N) (i : S2048x1024.Idx) :
    i ∈ ((cfg0.win 5).blk t).view.set ↔ ∀ a : Fin 2, win0_5.index t a * S256x1024.size a ≤ (i a).val
      ∧ (i a).val < win0_5.index t a * S256x1024.size a + S256x1024.size a := by
  show i ∈ ((View.whole main_v1_1).slice (win0_5.rect t)).set ↔ _
  rw [View.set_slice_whole, Rect.mem_set_unit]
  exact Iff.rfl

/-- Row `r` of the hidden-state result lies in the block of the point whose block row is `r / 256`. -/
theorem cover4 (i : S2048x1024.Idx) :
    ∃ t : Fin cfg0.N, (cfg0.win 4).flush t = true ∧ i ∈ ((cfg0.win 4).blk t).view.set := by
  have hi0 : (i 0).val < 2048 := idx2_lt0 i
  have hi1 : (i 1).val < 1024 := idx2_lt1 i
  obtain ⟨t, ht, -⟩ := idx_onto ⟨(i 0).val / 256, by omega⟩
  have q0 : win0_4.index t (0 : Fin 2) = (i 0).val / 256 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 1024 ≤ (i 1).val ∧ (i 1).val < win0_4.index t (1 : Fin 2) * 1024 + 1024; omega

/-- The same for the cell-state result. -/
theorem cover5 (i : S2048x1024.Idx) :
    ∃ t : Fin cfg0.N, (cfg0.win 5).flush t = true ∧ i ∈ ((cfg0.win 5).blk t).view.set := by
  have hi0 : (i 0).val < 2048 := idx2_lt0 i
  have hi1 : (i 1).val < 1024 := idx2_lt1 i
  obtain ⟨t, -, ht⟩ := idx_onto ⟨(i 0).val / 256, by omega⟩
  have q0 : win0_5.index t (0 : Fin 2) = (i 0).val / 256 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

/-! ## The arrays after the run -/

/-- The weight array the region finds is the weight argument: the host's narrowing is the identity on the
    extended reals. -/
theorem weights_entry (c : Dev nD) :
    (V m c main_v0 : Mat 1536 4096) = (m ((c : Thread nD τ).loc main_arg3) : Mat 1536 4096) := by
  dsimp only [Gen.V, Gen.hostOps0]; after_results; rfl

/-- The hidden-state result after the run: the new hidden state of the argument arrays. -/
theorem final4 (c : Dev nD) :
    (dats m 0 c).arrAt 4 cfg0.N = hiddenNext (m ((c : Thread nD τ).loc main_arg1)) (m ((c : Thread nD τ).loc main_arg0))
      (m ((c : Thread nD τ).loc main_arg2)) (m ((c : Thread nD τ).loc main_arg3)) := by
  rw [(dats m 0 c).arrAt_eq_of_cover 4 _ (fun t _ => flushed4_eq m c t) cover4,
    V_main_arg1, V_main_arg0, V_main_arg2, weights_entry]

/-- The cell-state result after the run: the new cell state of the argument arrays. -/
theorem final5 (c : Dev nD) :
    (dats m 0 c).arrAt 5 cfg0.N = cellNext (m ((c : Thread nD τ).loc main_arg1)) (m ((c : Thread nD τ).loc main_arg0))
      (m ((c : Thread nD τ).loc main_arg2)) (m ((c : Thread nD τ).loc main_arg3)) := by
  rw [(dats m 0 c).arrAt_eq_of_cover 5 _ (fun t _ => flushed5_eq m c t) cover5,
    V_main_arg1, V_main_arg0, V_main_arg2, weights_entry]

/-- Every weakly fair execution of the kernel's program terminates with the two results at the new hidden state and
    the new cell state of the argument arrays, the arguments unchanged. -/
theorem run : θ_run defs (onTc (τ := τ) (main (F := Ideal))) ⟨m, fun _ => 0, ρ⟩ fun r => ∀ c : Dev nD,
      r.2.mem ((c : Thread nD τ).loc main_v1_0) = hiddenNext (m ((c : Thread nD τ).loc main_arg1))
          (m ((c : Thread nD τ).loc main_arg0)) (m ((c : Thread nD τ).loc main_arg2)) (m ((c : Thread nD τ).loc main_arg3))
      ∧ r.2.mem ((c : Thread nD τ).loc main_v1_1) = cellNext (m ((c : Thread nD τ).loc main_arg1))
          (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Arrays

end
-- ==== Proof.RefCell.lean ====
/-
  The reference computes the same cell.

  The reference joins the hidden state and the input side by side into a 2048 × 1536 matrix and contracts it with the
  weight matrix in one product. Column k of the joined matrix is column k of the hidden state for k < 1024 and
  column k − 1024 of the input otherwise, so splitting the sum over the 1536 columns into its first 1024 and last 512
  terms gives the specification's pre-activation. The reference spells each gate's sigmoid as 1 / (1 + e^(−z)), which
  is the definition of the logistic function on the extended reals (infinities included: 1 / (1 + e^(+∞)) = 0 and
  1 / (1 + e^(−∞)) = 1), and takes the four gates from the same four column ranges.
-/
import proofs.«124817_j33328946217790_2_alg».proof.Proof.Gen.ReferenceIdeal.Read
import proofs.«124817_j33328946217790_2_alg».proof.Proof.CellSpec
import Idealize.ShloMosaic.Lib.Pipeline.Value
import Idealize.ShloMosaic.Lib.ValueIdx

noncomputable section

open scoped BigOperators

namespace Cert.ReferenceIdeal.Cell

open Cert.ReferenceIdeal Cert.ReferenceIdeal.Gen Cert.ReferenceIdeal.Read Cert.CellSpec
open Idealize.ShloMosaic Idealize.ShloMosaic.ValueIdx

variable (x0 : (⟨S2048x512, .f32⟩ : BufTy).Contents (Elt Ideal)) (x1 x2 : (⟨S2048x1024, .f32⟩ : BufTy).Contents (Elt Ideal))
  (x3 : (⟨S1536x4096, .f32⟩ : BufTy).Contents (Elt Ideal))

/-- The pre-activation depends on its row and column only through their values. -/
theorem preact_congr (h : Mat 2048 1024) (x : Mat 2048 512) (w : Mat 1536 4096) (b b' : Fin 2048) (n n' : Fin 4096)
    (hb : b.val = b'.val) (hn : n.val = n'.val) : preact h x w b n = preact h x w b' n' := by
  cases Fin.ext hb; cases Fin.ext hn; rfl

/-- A column of the joined matrix among the first 1024 is that column of the hidden state. -/
theorem joined_left (i : S2048x4096.Idx) (k : Fin 1024) :
    val_main_v0 (F := Ideal) x0 x1 (lidx_main_v1 i (hRow k)) = x1 (ix2 (i 0) k) := by
  unfold val_main_v0
  exact concatenate_pair_apply_left (t := S2048x1536) (s₁ := S2048x1024) (s₂ := S2048x512) 1 x1 x0
    concatenates_S2048x1024_S2048x512_S2048x1536_d1 (lidx_main_v1 i (hRow k)) rfl (ix2 (i 0) k) (fun b => match b with
    | ⟨0, _⟩ => rfl
    | ⟨1, _⟩ => rfl)

/-- Column `1024 + k` of the joined matrix is column `k` of the input. -/
theorem joined_right (i : S2048x4096.Idx) (k : Fin 512) :
    val_main_v0 (F := Ideal) x0 x1 (lidx_main_v1 i (xRow k)) = x0 (ix2 (i 0) k) := by
  unfold val_main_v0
  refine concatenate_pair_apply_right (t := S2048x1536) (s₁ := S2048x1024) (s₂ := S2048x512) 1 x1 x0
    concatenates_S2048x1024_S2048x512_S2048x1536_d1 (lidx_main_v1 i (xRow k)) rfl rfl (ix2 (i 0) k) (fun b hb => ?_) ?_
  · match b, hb with
    | ⟨0, _⟩, _ => rfl
    | ⟨1, _⟩, hb => exact absurd rfl hb
  · show k.val + 1024 = 1024 + k.val
    omega

/-- The reference's one product over the joined matrix is the specification's pre-activation. -/
theorem ref_preact (i : S2048x4096.Idx) :
    val_main_v1 (F := Ideal) x0 x1 x3 i = preact x1 x0 x3 (i 0) (i 1) := by
  rw [val_main_v1_apply, sum_rows]
  unfold preact
  congr 1
  · refine Finset.sum_congr rfl fun k _ => ?_
    have er : ridx_main_v1 i (hRow k) = ix2 (hRow k) (i 1) := by
      funext a; apply Fin.ext
      match a with
      | ⟨0, _⟩ => rfl
      | ⟨1, _⟩ => rfl
    rw [joined_left, er]
    rfl
  · refine Finset.sum_congr rfl fun k _ => ?_
    have er : ridx_main_v1 i (xRow k) = ix2 (xRow k) (i 1) := by
      funext a; apply Fin.ext
      match a with
      | ⟨0, _⟩ => rfl
      | ⟨1, _⟩ => rfl
    rw [joined_right, er]
    rfl

/-- The reference's spelling of the sigmoid, 1 / (1 + e^(−z)) with both ones the float pattern of one, is the
    logistic function. -/
theorem sigmoid_spelled (z : EReal) :
    FloatOps.hostDivf (F := Ideal) (φ := .f32) (FloatOps.ofBits .f32 0x3F800000#32)
      (FloatOps.addf (FloatOps.ofBits .f32 0x3F800000#32) (FloatOps.hostUnary .exp (FloatOps.hostNegf z)))
      = Ideal.logistic z := by
  show Ideal.div (Ideal.ofBits .f32 0x3F800000#32) (Ideal.ofBits .f32 0x3F800000#32 + Ideal.exp (-z)) = _
  rw [ofBits_one]
  rfl

/-- The input gate: the sigmoid of the pre-activation's first column range. -/
theorem gate_in (i : S2048x1024.Idx) :
    val_main_v11 (F := Ideal) x0 x1 x3 i = Ideal.logistic (preact x1 x0 x3 (i 0) (gateCol 0 (i 1))) := by
  rw [val_main_v11_apply, val_main_v10_apply, val_main_cst_0_apply, val_main_v9_apply, val_main_v8_apply,
    val_main_cst_apply, val_main_v7_apply, val_main_v6_apply, val_main_v2_apply, ref_preact, sigmoid_spelled]
  exact congrArg Ideal.logistic (preact_congr _ _ _ _ _ _ _ rfl (by show (i 1).val = (i 1).val + 1024 * 0; omega))

/-- The forget gate: the sigmoid of the second column range. -/
theorem gate_forget (i : S2048x1024.Idx) :
    val_main_v17 (F := Ideal) x0 x1 x3 i = Ideal.logistic (preact x1 x0 x3 (i 0) (gateCol 1 (i 1))) := by
  rw [val_main_v17_apply, val_main_v16_apply, val_main_cst_2_apply, val_main_v15_apply, val_main_v14_apply,
    val_main_cst_1_apply, val_main_v13_apply, val_main_v12_apply, val_main_v3_apply, ref_preact, sigmoid_spelled]
  exact congrArg Ideal.logistic (preact_congr _ _ _ _ _ _ _ rfl (by show 1024 + (i 1).val = (i 1).val + 1024 * 1; omega))

/-- The output gate: the sigmoid of the fourth column range. -/
theorem gate_out (i : S2048x1024.Idx) :
    val_main_v24 (F := Ideal) x0 x1 x3 i = Ideal.logistic (preact x1 x0 x3 (i 0) (gateCol 3 (i 1))) := by
  rw [val_main_v24_apply, val_main_v23_apply, val_main_cst_4_apply, val_main_v22_apply, val_main_v21_apply,
    val_main_cst_3_apply, val_main_v20_apply, val_main_v19_apply, val_main_v5_apply, ref_preact, sigmoid_spelled]
  exact congrArg Ideal.logistic (preact_congr _ _ _ _ _ _ _ rfl (by show 3072 + (i 1).val = (i 1).val + 1024 * 3; omega))

/-- The candidate: the hyperbolic tangent of the third column range. -/
theorem candidate (i : S2048x1024.Idx) :
    val_main_v18 (F := Ideal) x0 x1 x3 i = Ideal.tanh (preact x1 x0 x3 (i 0) (gateCol 2 (i 1))) := by
  rw [val_main_v18_apply, val_main_v4_apply, ref_preact]
  exact congrArg Ideal.tanh (preact_congr _ _ _ _ _ _ _ rfl (by show 2048 + (i 1).val = (i 1).val + 1024 * 2; omega))

/-- The reference's second result is the new cell state. -/
theorem ref_cell : val_main_v27 (F := Ideal) x0 x1 x2 x3 = cellNext x1 x0 x2 x3 := by
  funext i
  rw [val_main_v27_apply, val_main_v25_apply, val_main_v26_apply, gate_forget, gate_in, candidate]
  rfl

/-- The reference's first result is the new hidden state. -/
theorem ref_hidden : val_main_v29 (F := Ideal) x0 x1 x2 x3 = hiddenNext x1 x0 x2 x3 := by
  funext i
  rw [val_main_v29_apply, val_main_v28_apply, gate_out, ref_cell]
  rfl

end Cert.ReferenceIdeal.Cell

end
-- ==== Proof.lean ====
/-
  An LSTM cell, tiled over the batch, against its plain reference, on the extended reals.

  Arguments: the input x (2048 × 512), the previous hidden state h (2048 × 1024), the previous cell state c
  (2048 × 1024) and the weight matrix w (1536 × 4096). Both programs compute the pre-activation
      z = [h, x] · w                                   (2048 × 4096),
  cut it into four column ranges of width 1024, and return
      c' = σ(z₁) · c + σ(z₀) · tanh z₂,        h' = σ(z₃) · tanh c',        σ(t) = 1 / (1 + e^(−t)).

  The kernel works on blocks of 256 rows. It never forms [h, x]: it multiplies the block of h by the first 1024 rows
  of w and the block of x by the last 512 rows, each into a zero accumulator, and adds the two products; it narrows
  h, x and w to a 16-bit format first, which is the identity on the extended reals. The reference joins h and x and
  takes one product over the 1536 joined columns. The two agree because a sum of 1536 terms is the sum of its first
  1024 terms plus the sum of its last 512 — associativity and commutativity of addition, which hold on the extended
  reals with the infinities included, so the finiteness of the inputs is not used. The kernel's logistic operation is
  by definition 1 / (1 + e^(−t)), which is how the reference spells it; the hyperbolic tangent is one function on both
  sides; products and sums are taken in the same order.

  Each entry of c' and h' depends on one row of h, x and c only, so the formula applied to a block of rows gives
  that block of the result, and the eight blocks tile the 2048 rows: the kernel's two result arrays are c' and h' of
  the whole argument arrays.

  The idealization rewrote no operation, so that claim is trivial. The three frames are the generated ones (the
  reference's is its generated run with the results dropped).
-/
import proofs.«124817_j33328946217790_2_alg».proof.Defs
import proofs.«124817_j33328946217790_2_alg».proof.Proof.Gen.Kernel
import proofs.«124817_j33328946217790_2_alg».proof.Proof.Gen.Kernel.Skeleton
import proofs.«124817_j33328946217790_2_alg».proof.Proof.Gen.Kernel.Launch
import proofs.«124817_j33328946217790_2_alg».proof.Proof.Gen.Kernel.Points
import proofs.«124817_j33328946217790_2_alg».proof.Proof.Gen.Kernel.Frame
import proofs.«124817_j33328946217790_2_alg».proof.Proof.Gen.KernelIdeal
import proofs.«124817_j33328946217790_2_alg».proof.Proof.Gen.KernelIdeal.Skeleton
import proofs.«124817_j33328946217790_2_alg».proof.Proof.Gen.KernelIdeal.Launch
import proofs.«124817_j33328946217790_2_alg».proof.Proof.Gen.KernelIdeal.Points
import proofs.«124817_j33328946217790_2_alg».proof.Proof.Gen.KernelIdeal.Frame
import proofs.«124817_j33328946217790_2_alg».proof.Proof.Gen.ReferenceIdeal
import proofs.«124817_j33328946217790_2_alg».proof.Proof.Gen.Pre_finite_inputs
import proofs.«124817_j33328946217790_2_alg».proof.Proof.Gen.KernelIdeal.Value
import proofs.«124817_j33328946217790_2_alg».proof.Proof.Gen.ReferenceIdeal.Run
import proofs.«124817_j33328946217790_2_alg».proof.Proof.Gen.ReferenceIdeal.Read
import proofs.«124817_j33328946217790_2_alg».proof.Proof.KernelArrays
import proofs.«124817_j33328946217790_2_alg».proof.Proof.RefCell
import Idealize.ShloMosaic.Adequacy
import Idealize.ShloMosaic.Init

noncomputable section

namespace Cert.Proof

open Idealize.ShloMosaic Idealize.SL.Sem Cert.CellSpec

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From arguments that agree, the kernel ends with its two results at the new hidden state and the new cell state
    of the arguments, and so does the reference. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v29_eq, Cert.ReferenceIdeal.Cell.ref_hidden,
      (hagree c).1, (hagree c).2.1, (hagree c).2.2.1, (hagree c).2.2.2]
  · rw [Cert.ReferenceIdeal.Read.val_main_v27_eq, Cert.ReferenceIdeal.Cell.ref_cell,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
